-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x64x256x256 : Shape := ⟨5, ![2, 4, 64, 256, 256]⟩
abbrev S_ : Shape := ⟨0, ![]⟩

class Facts : Prop where
  bcast_S_S2x4x64x256x256 : S_.BroadcastsInDim S2x4x64x256x256 (![] : Fin 0 → Fin S2x4x64x256x256.rank)
  reducesTo_S2x4x64x256x256_S_d0_1_2_3_4 : S2x4x64x256x256.ReducesTo [0, 1, 2, 3, 4] S_
  h_S_ : 0 < S_.numel

variable [Facts]

def fn {F : FTy → Type} [FloatOps F] (main_arg0 : FVec F S2x4x64x256x256 .f32) (main_arg1 : FVec F S2x4x64x256x256 .f32) : IVec S_ 1 :=
  let main_v0 : FVec F S2x4x64x256x256 .f32 := Host.absf main_arg0
  let main_cst : FVec F S_ .f32 := constant S_ .f32 0x7F800000#32
  let main_v1 : FVec F S2x4x64x256x256 .f32 := broadcastInDim S2x4x64x256x256 ![] bcast_S_S2x4x64x256x256 main_cst
  let main_v2 : IVec S2x4x64x256x256 1 := cmpf .olt main_v0 main_v1
  let main_c : IVec S_ 1 := constantI S_ 1 1#1
  let main_v3 : IVec S_ 1 := (fun x v => Host.reduce IntOp.andi x v reducesTo_S2x4x64x256x256_S_d0_1_2_3_4 h_S_) main_v2 main_c
  let main_v4 : FVec F S2x4x64x256x256 .f32 := Host.absf main_arg1
  let main_cst_0 : FVec F S_ .f32 := constant S_ .f32 0x7F800000#32
  let main_v5 : FVec F S2x4x64x256x256 .f32 := broadcastInDim S2x4x64x256x256 ![] bcast_S_S2x4x64x256x256 main_cst_0
  let main_v6 : IVec S2x4x64x256x256 1 := cmpf .olt main_v4 main_v5
  let main_c_1 : IVec S_ 1 := constantI S_ 1 1#1
  let main_v7 : IVec S_ 1 := (fun x v => Host.reduce IntOp.andi x v reducesTo_S2x4x64x256x256_S_d0_1_2_3_4 h_S_) main_v6 main_c_1
  let main_v8 : IVec S_ 1 := andi main_v3 main_v7
  main_v8
-- ==== Kernel.lean ====
abbrev S2x4x64x256x256 : Shape := ⟨5, ![2, 4, 64, 256, 256]⟩
abbrev S512x65536 : Shape := ⟨2, ![512, 65536]⟩
abbrev S512x128 : Shape := ⟨2, ![512, 128]⟩
abbrev S32x65536 : Shape := ⟨2, ![32, 65536]⟩
abbrev S32x128 : Shape := ⟨2, ![32, 128]⟩
abbrev S32x1 : Shape := ⟨2, ![32, 1]⟩
abbrev S32x8192 : Shape := ⟨2, ![32, 8192]⟩
abbrev S32 : Shape := ⟨1, ![32]⟩
abbrev S32x124 : Shape := ⟨2, ![32, 124]⟩
abbrev S512x1 : Shape := ⟨2, ![512, 1]⟩
abbrev S512 : Shape := ⟨1, ![512]⟩
abbrev S2x4x64 : Shape := ⟨3, ![2, 4, 64]⟩
abbrev S_ : Shape := ⟨0, ![]⟩
abbrev S2x4 : Shape := ⟨2, ![2, 4]⟩

abbrev nBuf : Space → Nat
  | .hbm => 42
  | .vmem => 6
  | .smem => 0
  | _ => 0

abbrev bufTy : (tb : Table) → Fin (tcTables nBuf tb) → BufTy
  | .hbm, ⟨0, _⟩ => ⟨S2x4x64x256x256, .f32⟩
  | .hbm, ⟨1, _⟩ => ⟨S2x4x64x256x256, .f32⟩
  | .hbm, ⟨2, _⟩ => ⟨S512x65536, .f32⟩
  | .hbm, ⟨3, _⟩ => ⟨S512x65536, .f32⟩
  | .hbm, ⟨4, _⟩ => ⟨S512x128, .f32⟩
  | .hbm, ⟨5, _⟩ => ⟨S512x1, .f32⟩
  | .hbm, ⟨6, _⟩ => ⟨S512, .f32⟩
  | .hbm, ⟨7, _⟩ => ⟨S2x4x64, .f32⟩
  | .hbm, ⟨8, _⟩ => ⟨S512x1, .f32⟩
  | .hbm, ⟨9, _⟩ => ⟨S512, .f32⟩
  | .hbm, ⟨10, _⟩ => ⟨S2x4x64, .f32⟩
  | .hbm, ⟨11, _⟩ => ⟨S512x1, .f32⟩
  | .hbm, ⟨12, _⟩ => ⟨S512, .f32⟩
  | .hbm, ⟨13, _⟩ => ⟨S2x4x64, .f32⟩
  | .hbm, ⟨14, _⟩ => ⟨S512x1, .f32⟩
  | .hbm, ⟨15, _⟩ => ⟨S512, .f32⟩
  | .hbm, ⟨16, _⟩ => ⟨S2x4x64, .f32⟩
  | .hbm, ⟨17, _⟩ => ⟨S2x4x64, .f32⟩
  | .hbm, ⟨18, _⟩ => ⟨S_, .f32⟩
  | .hbm, ⟨19, _⟩ => ⟨S2x4x64, .f32⟩
  | .hbm, ⟨20, _⟩ => ⟨S2x4x64, .f32⟩
  | .hbm, ⟨21, _⟩ => ⟨S_, .f32⟩
  | .hbm, ⟨22, _⟩ => ⟨S2x4x64, .f32⟩
  | .hbm, ⟨23, _⟩ => ⟨S2x4x64, .f32⟩
  | .hbm, ⟨24, _⟩ => ⟨S2x4x64, .f32⟩
  | .hbm, ⟨25, _⟩ => ⟨S_, .f32⟩
  | .hbm, ⟨26, _⟩ => ⟨S2x4x64, .f32⟩
  | .hbm, ⟨27, _⟩ => ⟨S2x4x64, .f32⟩
  | .hbm, ⟨28, _⟩ => ⟨S_, .f32⟩
  | .hbm, ⟨29, _⟩ => ⟨S2x4x64, .f32⟩
  | .hbm, ⟨30, _⟩ => ⟨S2x4x64, .i1⟩
  | .hbm, ⟨31, _⟩ => ⟨S2x4x64, .f32⟩
  | .hbm, ⟨32, _⟩ => ⟨S2x4x64, .f32⟩
  | .hbm, ⟨33, _⟩ => ⟨S_, .f32⟩
  | .hbm, ⟨34, _⟩ => ⟨S2x4, .f32⟩
  | .hbm, ⟨35, _⟩ => ⟨S_, .f32⟩
  | .hbm, ⟨36, _⟩ => ⟨S2x4, .f32⟩
  | .hbm, ⟨37, _⟩ => ⟨S2x4, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S32x128, .f32⟩
  | .local _ .vmem, ⟨5, _⟩ => ⟨S32x128, .f32⟩
  | _, _ => ⟨S2x4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8192_i32 : BitVec 32 := 8192#32
  let v10 : BitVec 32 := Scalar.muli arg4 c8192_i32
  v10
def k0_off1 (k0_t1 : Fin k0_t1_loop.trips) : Fin 2 → Nat :=
  let c0_7 : Index := 0#32
  let c0_i32 : BitVec 32 := 0#32
  let c1_i32 : BitVec 32 := 1#32
  let arg4 : BitVec 32 := Scf.iv c0_i32 c1_i32 k0_t1
  let c8192_i32 : BitVec 32 := 8192#32
  let v10 : BitVec 32 := Scalar.muli arg4 c8192_i32
  let v11 : BitVec 32 := v10
  let v12 : Index := Scalar.indexCast v11
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x4x64x256x256_S512x65536 : S2x4x64x256x256.ShapeCasts S512x65536
  h_S32x8192 : 0 < S32x8192.numel
  shapeCasts_S32x8192_S32x8192 : S32x8192.ShapeCasts S32x8192
  reduces_S32x8192_S32 : S32x8192.Reduces [1] S32
  shapeCasts_S32_S32x1 : S32.ShapeCasts S32x1
  inb_S32x65536_S32x1_0_0 : ∀ a, (![0, 0] : Fin 2 → Nat) a + S32x1.size a ≤ S32x65536.size a
  h_S32x1 : 0 < S32x1.numel
  shapeCasts_S32x1_S32x1 : S32x1.ShapeCasts S32x1
  concatenates_S32x1_S32x1_S32x1_S32x1_S32x124_S32x128_d1 : Shape.Concatenates [S32x1, S32x1, S32x1, S32x1, S32x124] S32x128 1
  inb_S32x128_S32x128_0_0 : ∀ a, (![0, 0] : Fin 2 → Nat) a + S32x128.size a ≤ S32x128.size a
  h_S32x128 : 0 < S32x128.numel
  slices_S512x128_S512x1_0_0 : S512x128.Slices ![0, 0] S512x1
  shapeCasts_S512x1_S512 : S512x1.ShapeCasts S512
  shapeCasts_S512_S2x4x64 : S512.ShapeCasts S2x4x64
  slices_S512x128_S512x1_0_1 : S512x128.Slices ![0, 1] S512x1
  slices_S512x128_S512x1_0_2 : S512x128.Slices ![0, 2] S512x1
  slices_S512x128_S512x1_0_3 : S512x128.Slices ![0, 3] S512x1
  bcast_S_S2x4x64 : S_.BroadcastsInDim S2x4x64 (![] : Fin 0 → Fin S2x4x64.rank)
  reducesTo_S2x4x64_S2x4_d2 : S2x4x64.ReducesTo [2] S2x4
  h_S_ : 0 < S_.numel
  reducesTo_S2x4_S_d0_1 : S2x4.ReducesTo [0, 1] S_
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S32x8192.size a ≤ S32x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S512x65536.size a
  hwx0_0 : ∀ i : grid0.Coords, EltTy.bits .f32 = 32 ∨ (Rect.block (s := S512x65536) S32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x65536.size a ≤ S512x65536.size a
  hwx0_1 : ∀ i : grid0.Coords, EltTy.bits .f32 = 32 ∨ (Rect.block (s := S512x65536) S32x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S512x128.size a
  hwx0_2 : ∀ i : grid0.Coords, EltTy.bits .f32 = 32 ∨ (Rect.block (s := S512x128) S32x128.size (cc0_transform_2 i) (hinb0_2 i)).WholeWords (EltTy.packing .f32)

variable [Facts₀]

abbrev win0_0 : Pipeline.Window sig grid0 :=
  Pipeline.Window.ofSpec (Memref.whole main_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4x64x256x256 : Shape := ⟨5, ![2, 4, 64, 256, 256]⟩
abbrev S_ : Shape := ⟨0, ![]⟩
abbrev S2x4x64x65536 : Shape := ⟨4, ![2, 4, 64, 65536]⟩
abbrev S2x4x64 : Shape := ⟨3, ![2, 4, 64]⟩
abbrev S2x4x64x1 : Shape := ⟨4, ![2, 4, 64, 1]⟩
abbrev S2x4 : Shape := ⟨2, ![2, 4]⟩

abbrev nBuf : Space → Nat
  | .hbm => 46
  | .vmem => 0
  | .smem => 0
  | _ => 0

abbrev bufTy : (tb : Table) → Fin (tcTables nBuf tb) → BufTy
  | .hbm, ⟨0, _⟩ => ⟨S2x4x64x256x256, .f32⟩
  | .hbm, ⟨1, _⟩ => ⟨S2x4x64x256x256, .f32⟩
  | .hbm, ⟨2, _⟩ => ⟨S2x4x64x256x256, .f32⟩
  | .hbm, ⟨3, _⟩ => ⟨S2x4x64x256x256, .f32⟩
  | .hbm, ⟨4, _⟩ => ⟨S_, .f32⟩
  | .hbm, ⟨5, _⟩ => ⟨S2x4x64x256x256, .f32⟩
  | .hbm, ⟨6, _⟩ => ⟨S2x4x64x256x256, .f32⟩
  | .hbm, ⟨7, _⟩ => ⟨S_, .f32⟩
  | .hbm, ⟨8, _⟩ => ⟨S2x4x64x256x256, .f32⟩
  | .hbm, ⟨9, _⟩ => ⟨S2x4x64x256x256, .f32⟩
  | .hbm, ⟨10, _⟩ => ⟨S2x4x64x65536, .f32⟩
  | .hbm, ⟨11, _⟩ => ⟨S2x4x64x65536, .f32⟩
  | .hbm, ⟨12, _⟩ => ⟨S2x4x64x65536, .f32⟩
  | .hbm, ⟨13, _⟩ => ⟨S_, .f32⟩
  | .hbm, ⟨14, _⟩ => ⟨S2x4x64, .f32⟩
  | .hbm, ⟨15, _⟩ => ⟨S_, .f32⟩
  | .hbm, ⟨16, _⟩ => ⟨S2x4x64, .f32⟩
  | .hbm, ⟨17, _⟩ => ⟨S_, .f32⟩
  | .hbm, ⟨18, _⟩ => ⟨S2x4x64, .f32⟩
  | .hbm, ⟨19, _⟩ => ⟨S2x4x64, .f32⟩
  | .hbm, ⟨20, _⟩ => ⟨S_, .f32⟩
  | .hbm, ⟨21, _⟩ => ⟨S2x4x64, .f32⟩
  | .hbm, ⟨22, _⟩ => ⟨S2x4x64, .f32⟩
  | .hbm, ⟨23, _⟩ => ⟨S_, .f32⟩
  | .hbm, ⟨24, _⟩ => ⟨S2x4x64, .f32⟩
  | .hbm, ⟨25, _⟩ => ⟨S2x4x64, .f32⟩
  | .hbm, ⟨26, _⟩ => ⟨S2x4x64, .f32⟩
  | .hbm, ⟨27, _⟩ => ⟨S_, .f32⟩
  | .hbm, ⟨28, _⟩ => ⟨S2x4x64, .f32⟩
  | .hbm, ⟨29, _⟩ => ⟨S2x4x64, .f32⟩
  | .hbm, ⟨30, _⟩ => ⟨S2x4x64x1, .f32⟩
  | .hbm, ⟨31, _⟩ => ⟨S2x4x64, .f32⟩
  | .hbm, ⟨32, _⟩ => ⟨S_, .f32⟩
  | .hbm, ⟨33, _⟩ => ⟨S2x4x64, .f32⟩
  | .hbm, ⟨34, _⟩ => ⟨S2x4x64, .i1⟩
  | .hbm, ⟨35, _⟩ => ⟨S2x4x64, .f32⟩
  | .hbm, ⟨36, _⟩ => ⟨S2x4x64, .f32⟩
  | .hbm, ⟨37, _⟩ => ⟨S_, .f32⟩
  | .hbm, ⟨38, _⟩ => ⟨S2x4, .f32⟩
  | .hbm, ⟨39, _⟩ => ⟨S_, .f32⟩
  | .hbm, ⟨40, _⟩ => ⟨S2x4, .f32⟩
  | .hbm, ⟨41, _⟩ => ⟨S2x4, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S2x4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S2x4x64x256x256 : S_.BroadcastsInDim S2x4x64x256x256 (![] : Fin 0 → Fin S2x4x64x256x256.rank)
  shapeCasts_S2x4x64x256x256_S2x4x64x65536 : S2x4x64x256x256.ShapeCasts S2x4x64x65536
  reducesTo_S2x4x64x65536_S2x4x64_d3 : S2x4x64x65536.ReducesTo [3] S2x4x64
  h_S_ : 0 < S_.numel
  bcast_S_S2x4x64 : S_.BroadcastsInDim S2x4x64 (![] : Fin 0 → Fin S2x4x64.rank)
  slices_S2x4x64x65536_S2x4x64x1_0_0_0_0 : S2x4x64x65536.Slices ![0, 0, 0, 0] S2x4x64x1
  shapeCasts_S2x4x64x1_S2x4x64 : S2x4x64x1.ShapeCasts S2x4x64
  reducesTo_S2x4x64_S2x4_d2 : S2x4x64.ReducesTo [2] S2x4
  reducesTo_S2x4_S_d0_1 : S2x4.ReducesTo [0, 1] S_

variable [Facts₀]

class Facts : Prop extends Facts₀ where

variable [Facts]
-- ==== Proof.RefRead.lean ====
/-
  The reference's run read one operation at a time: this module only brings the reference's generated run and its
  read-at-an-index lemmas into scope for the modules that identify the reference's result with the specification.
-/
import proofs.«106986_j12704513262234_2_alg».proof.Proof.Gen.ReferenceIdeal.Read
-- ==== Proof.DiceSpec.lean ====
/-
  THE SPECIFICATION. Both programs compute, from a prediction volume `x0` and a target volume `x1` of shape
  [2, 4, 64, 256, 256], one number:

    * each of the 512 = 2·4·64 slices `r` is a run of 65536 consecutive entries of the row-major volume (entry `k` of
      slice `r` sits at position `65536 r + k`), and has four statistics —
        numer r = ∑ₖ σ(x0[r,k]) · x1[r,k],   pred r = ∑ₖ σ(x0[r,k]),   targ r = ∑ₖ x1[r,k],   first r = x1[r,0]
      with σ the logistic function `1 / (1 + e^(-x))` on the extended reals;
    * the TAIL turns the four [2, 4, 64] arrays of statistics into the result: the loss `1 − 2·numer / (pred + targ + 1)`
      of each slice, masked by "first ≠ −1", averaged over the 64 slices of each of the 8 (batch, organ) pairs with the
      mask's count as the divisor, then averaged over the 8 pairs.

  The tail is spelled ONCE, in the host operations both programs print for it, so that each program's own tail is this
  definition at its own four arrays and the tail's arithmetic (divisions, a comparison, masked sums) never has to be opened.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Dice

open Idealize.ShloMosaic

/-- The two volumes' shape, the per-slice statistics' shape, the per-pair shape, a scalar's shape. -/
abbrev Vol : Shape := ⟨5, ![2, 4, 64, 256, 256]⟩
abbrev Slab : Shape := ⟨3, ![2, 4, 64]⟩
abbrev Pair : Shape := ⟨2, ![2, 4]⟩
abbrev Sc : Shape := ⟨0, ![]⟩

/-- The volume's index at row-major position `n`. -/
def cellAt (n : ℕ) (h : n < 33554432) : Vol.Idx := fun a => match a with
  | ⟨0, _⟩ => ⟨n / 16777216, by show n / 16777216 < 2; omega⟩
  | ⟨1, _⟩ => ⟨n / 4194304 % 4, by show n / 4194304 % 4 < 4; omega⟩
  | ⟨2, _⟩ => ⟨n / 65536 % 64, by show n / 65536 % 64 < 64; omega⟩
  | ⟨3, _⟩ => ⟨n / 256 % 256, by show n / 256 % 256 < 256; omega⟩
  | ⟨4, _⟩ => ⟨n % 256, by show n % 256 < 256; omega⟩

/-- Entry `k` of slice `r`: position `65536 r + k` of the volume. -/
def cell (r : Fin 512) (k : Fin 65536) : Vol.Idx :=
  cellAt (r.val * 65536 + k.val) (by have := r.isLt; have := k.isLt; omega)

/-- The slice a (batch, organ, depth) index names: `(4 b + o) · 64 + d`. -/
def rowOf (s : Slab.Idx) : Fin 512 :=
  ⟨((s 0).val * 4 + (s 1).val) * 64 + (s 2).val, by
    have h0 : (s 0).val < 2 := (s 0).isLt; have h1 : (s 1).val < 4 := (s 1).isLt; have h2 : (s 2).val < 64 := (s 2).isLt
    omega⟩

/-! ## The four statistics of a slice -/

def rowNumer (x0 x1 : FVec Ideal Vol .f32) (r : Fin 512) : EReal :=
  ∑ k : Fin 65536, Ideal.logistic (x0 (cell r k)) * x1 (cell r k)
def rowPred (x0 : FVec Ideal Vol .f32) (r : Fin 512) : EReal := ∑ k : Fin 65536, Ideal.logistic (x0 (cell r k))
def rowTarg (x1 : FVec Ideal Vol .f32) (r : Fin 512) : EReal := ∑ k : Fin 65536, x1 (cell r k)
def rowFirst (x1 : FVec Ideal Vol .f32) (r : Fin 512) : EReal := x1 (cell r ⟨0, by decide⟩)

/-! ## The tail -/

/-- The shape operations' side conditions: a scalar broadcasts to the statistics' shape, which reduces along its last
    axis to the pairs' shape, which reduces along both axes to a scalar. -/
theorem hb : Sc.BroadcastsInDim Slab (![] : Fin 0 → Fin Slab.rank) := by decide
theorem hr : Slab.ReducesTo [2] Pair := by decide
theorem hs : 0 < Sc.numel := by decide
theorem hr2 : Pair.ReducesTo [0, 1] Sc := by decide

/-- From the four arrays of statistics to the result, in the host operations both programs print. -/
def tail (numer pred targ first : FVec Ideal Slab .f32) : FVec Ideal Sc .f32 :=
  Host.divf
    (Host.reduceAdd
      (Host.divf
        (Host.reduceAdd
          (mulf
            (subf (broadcastInDim Slab ![] hb (constant (F := Ideal) Sc .f32 0x3F800000#32))
              (Host.divf (mulf (broadcastInDim Slab ![] hb (constant (F := Ideal) Sc .f32 0x40000000#32)) numer)
                (addf (addf pred targ) (broadcastInDim Slab ![] hb (constant (F := Ideal) Sc .f32 0x3F800000#32)))))
            (uitofp .f32 (cmpf .une first (broadcastInDim Slab ![] hb (constant (F := Ideal) Sc .f32 0xBF800000#32)))))
          (constant (F := Ideal) Sc .f32 0x00000000#32) hr hs)
        (Host.reduceAdd
          (uitofp .f32 (cmpf .une first (broadcastInDim Slab ![] hb (constant (F := Ideal) Sc .f32 0xBF800000#32))))
          (constant (F := Ideal) Sc .f32 0x00000000#32) hr hs))
      (constant (F := Ideal) Sc .f32 0x00000000#32) hr2 hs)
    (constant (F := Ideal) Sc .f32 0x41000000#32)

/-- THE RESULT as one function of the two volumes. -/
def result (x0 x1 : FVec Ideal Vol .f32) : FVec Ideal Sc .f32 :=
  tail (fun s => rowNumer x0 x1 (rowOf s)) (fun s => rowPred x0 (rowOf s))
    (fun s => rowTarg x1 (rowOf s)) (fun s => rowFirst x1 (rowOf s))

/-! ## Two words -/

/-- The word `0x3F800000` denotes the real number one. -/
theorem ofBits_one : Ideal.ofBits .f32 0x3F800000#32 = 1 := by
  simp [Ideal.ofBits, Ideal.ieee, -EReal.coe_mul]; norm_num

/-- The logistic function in the host's spelling — negate, exponential, add one, divide one by it — with the ones as
    the word `0x3F800000`. -/
theorem logistic_spelled (x : EReal) :
    Ideal.div (Ideal.ofBits .f32 0x3F800000#32) (Ideal.ofBits .f32 0x3F800000#32 + Ideal.exp (-x)) = Ideal.logistic x := by
  rw [ofBits_one]; rfl

end Cert.Dice

end
-- ==== Proof.RefIsSpec.lean ====
/-
  THE REFERENCE IS THE SPECIFICATION. The reference flattens each slice's 256 × 256 plane (a reshape keeps the
  row-major position, so entry `k` of slice `(b, o, d)` is the volume's entry at position `65536·((4b + o)·64 + d) + k`),
  applies the logistic function in its spelled-out form `1 / (1 + e^(-x))`, and takes three sums over the 65536
  entries — each the initial value `0` plus the sum — and the slice's first target entry; then the tail. So its four
  arrays are the specification's statistics at the slice `rowOf s`, and its result is `Cert.Dice.result`.
-/
import proofs.«106986_j12704513262234_2_alg».proof.Proof.RefRead
import proofs.«106986_j12704513262234_2_alg».proof.Proof.DiceSpec

noncomputable section

open scoped BigOperators

namespace Cert.ReferenceIdeal.RefValue

open Cert.ReferenceIdeal Cert.ReferenceIdeal.Gen Cert.ReferenceIdeal.Read Cert.Dice Idealize.ShloMosaic

/-- The flattened-plane index `(b, o, d, k)` is read, through the reshape, at the volume's entry `k` of slice
    `rowOf (b, o, d)`: the same row-major position. -/
theorem idx6_cell (s : S2x4x64.Idx) (k : Fin 65536) : idx_main_v6 (idx_main_v9 s k) = cell (rowOf s) k := by
  funext a; match a with | ⟨0, _⟩ => rfl | ⟨1, _⟩ => rfl | ⟨2, _⟩ => rfl | ⟨3, _⟩ => rfl | ⟨4, _⟩ => rfl
theorem idx7_cell (s : S2x4x64.Idx) (k : Fin 65536) : idx_main_v7 (idx_main_v9 s k) = cell (rowOf s) k := by
  funext a; match a with | ⟨0, _⟩ => rfl | ⟨1, _⟩ => rfl | ⟨2, _⟩ => rfl | ⟨3, _⟩ => rfl | ⟨4, _⟩ => rfl

/-- The reference's logistic stage at a volume index is the logistic function of the prediction there. -/
theorem v5_apply (x0 : FVec Ideal S2x4x64x256x256 .f32) (j : S2x4x64x256x256.Idx) :
    val_main_v5 (F := Ideal) x0 j = Ideal.logistic (x0 j) := by
  rw [val_main_v5_apply, val_main_v4_apply, val_main_cst_0_apply, val_main_v3_apply, val_main_v2_apply, val_main_cst_apply,
    val_main_v1_apply, val_main_v0_apply]
  exact logistic_spelled (x0 j)

/-- The flattened logistic and target arrays at `(b, o, d, k)`. -/
theorem v6_at (x0 : FVec Ideal S2x4x64x256x256 .f32) (s : S2x4x64.Idx) (k : Fin 65536) :
    val_main_v6 (F := Ideal) x0 (idx_main_v9 s k) = Ideal.logistic (x0 (cell (rowOf s) k)) := by
  rw [val_main_v6_apply, v5_apply, idx6_cell]
theorem v7_at (x1 : FVec Ideal S2x4x64x256x256 .f32) (s : S2x4x64.Idx) (k : Fin 65536) :
    val_main_v7 (F := Ideal) x1 (idx_main_v9 s k) = x1 (cell (rowOf s) k) := by
  rw [val_main_v7_apply, idx7_cell]

/-- The reference's three sums and its first-entry array are the specification's statistics. -/
theorem numer_eq (x0 x1 : FVec Ideal S2x4x64x256x256 .f32) :
    val_main_v9 (F := Ideal) x0 x1 = fun s => rowNumer x0 x1 (rowOf s) := by
  funext s
  rw [val_main_v9_apply, val_main_cst_1_apply, Ideal.ofBits_def, Ideal.ofBits_zero_f32, zero_add]
  exact Finset.sum_congr rfl fun k _ => by rw [val_main_v8_apply, v6_at, v7_at]; rfl
theorem pred_eq (x0 : FVec Ideal S2x4x64x256x256 .f32) :
    val_main_v10 (F := Ideal) x0 = fun s => rowPred x0 (rowOf s) := by
  funext s
  rw [val_main_v10_apply, val_main_cst_2_apply, Ideal.ofBits_def, Ideal.ofBits_zero_f32, zero_add]
  exact Finset.sum_congr rfl fun k _ => v6_at x0 s k
theorem targ_eq (x1 : FVec Ideal S2x4x64x256x256 .f32) :
    val_main_v11 (F := Ideal) x1 = fun s => rowTarg x1 (rowOf s) := by
  funext s
  rw [val_main_v11_apply, val_main_cst_3_apply, Ideal.ofBits_def, Ideal.ofBits_zero_f32, zero_add]
  exact Finset.sum_congr rfl fun k _ => v7_at x1 s k
theorem first_eq (x1 : FVec Ideal S2x4x64x256x256 .f32) :
    val_main_v21 (F := Ideal) x1 = fun s => rowFirst x1 (rowOf s) := by
  funext s
  rw [val_main_v21_apply, val_main_v20_apply, val_main_v7_apply]
  refine congrArg x1 ?_
  funext a
  have h0 : (s 0).val < 2 := (s 0).isLt; have h1 : (s 1).val < 4 := (s 1).isLt; have h2 : (s 2).val < 64 := (s 2).isLt
  apply Fin.ext
  match a with
  | ⟨0, _⟩ => show (((((((s 0).val * 4 + (s 1).val) * 64 + (s 2).val) / 256) * 4 + (((s 0).val * 4 + (s 1).val) * 64 + (s 2).val) / 64 % 4) * 64 + (((s 0).val * 4 + (s 1).val) * 64 + (s 2).val) / 1 % 64) * 65536 + 0) / 16777216 = ((((s 0).val * 4 + (s 1).val) * 64 + (s 2).val) * 65536 + 0) / 16777216; omega
  | ⟨1, _⟩ => show (((((((s 0).val * 4 + (s 1).val) * 64 + (s 2).val) / 256) * 4 + (((s 0).val * 4 + (s 1).val) * 64 + (s 2).val) / 64 % 4) * 64 + (((s 0).val * 4 + (s 1).val) * 64 + (s 2).val) / 1 % 64) * 65536 + 0) / 4194304 % 4 = ((((s 0).val * 4 + (s 1).val) * 64 + (s 2).val) * 65536 + 0) / 4194304 % 4; omega
  | ⟨2, _⟩ => show (((((((s 0).val * 4 + (s 1).val) * 64 + (s 2).val) / 256) * 4 + (((s 0).val * 4 + (s 1).val) * 64 + (s 2).val) / 64 % 4) * 64 + (((s 0).val * 4 + (s 1).val) * 64 + (s 2).val) / 1 % 64) * 65536 + 0) / 65536 % 64 = ((((s 0).val * 4 + (s 1).val) * 64 + (s 2).val) * 65536 + 0) / 65536 % 64; omega
  | ⟨3, _⟩ => show (((((((s 0).val * 4 + (s 1).val) * 64 + (s 2).val) / 256) * 4 + (((s 0).val * 4 + (s 1).val) * 64 + (s 2).val) / 64 % 4) * 64 + (((s 0).val * 4 + (s 1).val) * 64 + (s 2).val) / 1 % 64) * 65536 + 0) / 256 % 256 = ((((s 0).val * 4 + (s 1).val) * 64 + (s 2).val) * 65536 + 0) / 256 % 256; omega
  | ⟨4, _⟩ => show (((((((s 0).val * 4 + (s 1).val) * 64 + (s 2).val) / 256) * 4 + (((s 0).val * 4 + (s 1).val) * 64 + (s 2).val) / 64 % 4) * 64 + (((s 0).val * 4 + (s 1).val) * 64 + (s 2).val) / 1 % 64) * 65536 + 0) % 256 = ((((s 0).val * 4 + (s 1).val) * 64 + (s 2).val) * 65536 + 0) % 256; omega

/-- THE REFERENCE'S RESULT is the specification's, of the same two volumes. -/
theorem result_eq (x0 x1 : FVec Ideal S2x4x64x256x256 .f32) :
    val_main_v30 (F := Ideal) x0 x1 = Cert.Dice.result x0 x1 := by
  show tail (val_main_v9 (F := Ideal) x0 x1) (val_main_v10 (F := Ideal) x0) (val_main_v11 (F := Ideal) x1)
    (val_main_v21 (F := Ideal) x1) = _
  rw [numer_eq, pred_eq, targ_eq, first_eq]
  rfl

end Cert.ReferenceIdeal.RefValue

end
-- ==== Proof.KernelChunk.lean ====
/-
  THE LOOP BODY'S ARITHMETIC, at the ideal instance, read at a row. One trip of the kernel's loop takes a chunk of
  8192 consecutive lanes of the prediction block (`p`) and of the target block (`t`) and advances three [32, 1]
  accumulators, row by row:

      numer r  ←  numer r + ∑ⱼ σ(p[r, j]) · t[r, j]      pred r  ←  pred r + ∑ⱼ σ(p[r, j])      targ r  ←  targ r + ∑ⱼ t[r, j]

  (σ the logistic function; the lane sum at `Ideal` is the plain sum over the 8192 lanes; the [32] → [32, 1] cast
  keeps the row), and all three start at zero.
-/
import proofs.«106986_j12704513262234_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Row `r` of the [32] vector with lane `k` put back is `(r, k)`. -/
theorem lift_row (h : S32x8192.Reduces [1] S32) (r : Fin 32) (k : Fin (S32x8192.size 1)) :
    h.lift (ix1 r) k = ix2 r (⟨k.val, k.isLt⟩ : Fin 8192) := by
  funext c; apply Fin.ext; fin_cases c <;> rfl

/-- The lane sum of a [32, 8192] vector, at row `r`, is the sum of the row's 8192 entries. -/
theorem laneSum_apply (src : FVec Ideal S32x8192 .f32) (r : Fin 32) :
    multiReduction .add [1] S32 src 0x00000000#32 reduces_S32x8192_S32 (.inl rfl) rfl (ix1 r)
      = ∑ j : Fin 8192, src (ix2 r j) :=
  (Ideal.multiReduction_add_single src 0x00000000#32 reduces_S32x8192_S32 (.inl rfl) rfl (ix1 r)).trans
    (Finset.sum_congr rfl fun k _ => congrArg src (lift_row _ r k))

/-- A [32] vector cast to a [32, 1] column, at `(r, 0)`, is the vector at `r`. -/
theorem col_apply (v : FVec Ideal S32 .f32) (r : Fin 32) :
    shapeCast S32x1 v shapeCasts_S32_S32x1 (ix2 r (0 : Fin 1)) = v (ix1 r) :=
  shapeCast_apply v shapeCasts_S32_S32x1 (ix2 r (0 : Fin 1)) (ix1 r)
    (by rw [Shape.rowMajor_val_one, Shape.rowMajor_val_two]; show r.val = r.val * 1 + 0; omega)

/-- The logistic of the loaded prediction chunk, and the loaded target chunk (the same-shape casts are identities). -/
theorem pay4_eq (v13 : Vec Ideal S32x8192 .f32) : k0_pay4 (F := Ideal) v13 = logistic v13 := by
  unfold k0_pay4; exact congrArg logistic (shapeCast_self _ _)
theorem pay5_eq (v17 : Vec Ideal S32x8192 .f32) : k0_pay5 (F := Ideal) v17 = v17 := by
  unfold k0_pay5; exact shapeCast_self _ _

/-- The numerator accumulator after a trip, at row `r`. -/
theorem pay6_apply (a : FVec Ideal S32x1 .f32) (v13 v17 : Vec Ideal S32x8192 .f32) (r : Fin 32) :
    k0_pay6 (F := Ideal) a v13 v17 (ix2 r (0 : Fin 1))
      = a (ix2 r (0 : Fin 1)) + ∑ j : Fin 8192, Ideal.logistic (v13 (ix2 r j)) * v17 (ix2 r j) := by
  unfold k0_pay6
  show a (ix2 r (0 : Fin 1)) + shapeCast S32x1 (multiReduction .add [1] S32 (mulf (k0_pay4 (F := Ideal) v13) (k0_pay5 (F := Ideal) v17))
    0x00000000#32 reduces_S32x8192_S32 (.inl rfl) rfl) shapeCasts_S32_S32x1 (ix2 r (0 : Fin 1)) = _
  rw [pay4_eq, pay5_eq]
  exact congrArg (a (ix2 r (0 : Fin 1)) + ·) ((col_apply _ r).trans (laneSum_apply _ r))

/-- The prediction-sum accumulator after a trip, at row `r`. -/
theorem pay7_apply (a : FVec Ideal S32x1 .f32) (v13 : Vec Ideal S32x8192 .f32) (r : Fin 32) :
    k0_pay7 (F := Ideal) a v13 (ix2 r (0 : Fin 1))
      = a (ix2 r (0 : Fin 1)) + ∑ j : Fin 8192, Ideal.logistic (v13 (ix2 r j)) := by
  unfold k0_pay7
  show a (ix2 r (0 : Fin 1)) + shapeCast S32x1 (multiReduction .add [1] S32 (k0_pay4 (F := Ideal) v13)
    0x00000000#32 reduces_S32x8192_S32 (.inl rfl) rfl) shapeCasts_S32_S32x1 (ix2 r (0 : Fin 1)) = _
  rw [pay4_eq]
  exact congrArg (a (ix2 r (0 : Fin 1)) + ·) ((col_apply _ r).trans (laneSum_apply _ r))

/-- The target-sum accumulator after a trip, at row `r`. -/
theorem pay8_apply (a : FVec Ideal S32x1 .f32) (v17 : Vec Ideal S32x8192 .f32) (r : Fin 32) :
    k0_pay8 (F := Ideal) a v17 (ix2 r (0 : Fin 1)) = a (ix2 r (0 : Fin 1)) + ∑ j : Fin 8192, v17 (ix2 r j) := by
  unfold k0_pay8
  show a (ix2 r (0 : Fin 1)) + shapeCast S32x1 (multiReduction .add [1] S32 (k0_pay5 (F := Ideal) v17)
    0x00000000#32 reduces_S32x8192_S32 (.inl rfl) rfl) shapeCasts_S32_S32x1 (ix2 r (0 : Fin 1)) = _
  rw [pay5_eq]
  exact congrArg (a (ix2 r (0 : Fin 1)) + ·) ((col_apply _ r).trans (laneSum_apply _ r))

/-- The three accumulators start at zero. -/
theorem pay1_apply (i : S32x1.Idx) : k0_pay1 (F := Ideal) i = 0 := Ideal.ofBits_zero_f32
theorem pay2_apply (i : S32x1.Idx) : k0_pay2 (F := Ideal) i = 0 := Ideal.ofBits_zero_f32
theorem pay3_apply (i : S32x1.Idx) : k0_pay3 (F := Ideal) i = 0 := Ideal.ofBits_zero_f32

end Cert.KernelIdeal.Body

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.KernelLoop.lean ====
/-
  THE LOOP, CLOSED. The kernel's loop makes 8 trips; trip `k` loads lanes `8192 k … 8192 k + 8191` of the prediction
  block and of the target block and advances the three accumulators by that chunk's sums (the loop body's arithmetic).
  Started at zero, each accumulator is a left-to-right sum of 8 chunk sums; on the extended reals, where addition is
  commutative and associative at the infinities too, that is the sum over all 65536 lanes of the row
  (`fold_chunks_eq_sum`). So after the loop, at row `r`:

      numer r = ∑ₖ σ(p[r, k]) · t[r, k]        pred r = ∑ₖ σ(p[r, k])        targ r = ∑ₖ t[r, k]        (k over 65536 lanes).
-/
import proofs.«106986_j12704513262234_2_alg».proof.Proof.Gen.KernelIdeal.Loops
import proofs.«106986_j12704513262234_2_alg».proof.Proof.KernelChunk
import proofs.«106986_j12704513262234_2_alg».proof.Proof.LibSumChunks
import Idealize.ShloMosaic.Lib.Pipeline.FrameBody

noncomputable section

open scoped BigOperators

namespace Cert.KernelIdeal.Body

open Cert.KernelIdeal Cert.KernelIdeal.Gen Idealize.ShloMosaic Idealize.ShloMosaic.ValueIdx Idealize.SL.Sem
open Cert.Lib.SumChunks

/-- The loop makes eight trips. -/
theorem trips_eq : k0_t1_loop.trips = 8 := by decide

/-- What one trip yields from the carried triple: the three updates of the loop body at the trip's two chunk loads. -/
theorem tripR_eq {F : FTy → Type} [FloatOps F] (𝒱 : Variants) (c : Dev nD) (bd : Option 𝒱.V) (i : grid0.Coords) (arg1 : Memref sig .tc .vmem S32x65536 .f32) (harg1 : arg1.IsWhole) (arg2 : Memref sig .tc .vmem S32x65536 .f32) (harg2 : arg2.IsWhole) (arg3 : Memref sig .tc .vmem S32x128 .f32) (harg3 : arg3.IsWhole)
    (X1 : BufTy.Contents (Elt F) arg1.view.ty) (X2 : BufTy.Contents (Elt F) arg2.view.ty) (k : Fin k0_t1_loop.trips)
    (acc : FVec F S32x1 .f32 × FVec F S32x1 .f32 × FVec F S32x1 .f32) :
    tripR_k0_t1 (F := F) 𝒱 c bd i arg1 harg1 arg2 harg2 arg3 harg3 X1 X2 k acc
      = (k0_pay6 acc.1 (View.readAt (Elt F) arg1.view (Rect.unit (s := S32x65536) (k0_off1 k) S32x8192.size (k0_off1_inb k)).toLoadRect X1)
            (View.readAt (Elt F) arg2.view (Rect.unit (s := S32x65536) (k0_off1 k) S32x8192.size (k0_off1_inb k)).toLoadRect X2),
          k0_pay7 acc.2.1 (View.readAt (Elt F) arg1.view (Rect.unit (s := S32x65536) (k0_off1 k) S32x8192.size (k0_off1_inb k)).toLoadRect X1),
          k0_pay8 acc.2.2 (View.readAt (Elt F) arg2.view (Rect.unit (s := S32x65536) (k0_off1 k) S32x8192.size (k0_off1_inb k)).toLoadRect X2)) := by
  unfold tripR_k0_t1 trip_k0_t1
  rfl

/-- Trip `k`'s chunk load of a whole staging buffer holding the block `x`, at `(r, j)`, is the block at lane `j + 8192 k`. -/
theorem chunk_read (arg : Memref sig .tc .vmem S32x65536 .f32) (harg : arg.IsWhole) (x : Vec Ideal S32x65536 .f32)
    (k : Fin k0_t1_loop.trips) (r : Fin 32) (j : Fin 8192) (hl : j.val + 8192 * k.val < 65536) :
    View.readAt (Elt Ideal) arg.view (Rect.unit (s := S32x65536) (k0_off1 k) S32x8192.size (k0_off1_inb k)).toLoadRect (harg.unread x) (ix2 r j)
      = x (ix2 r (⟨j.val + 8192 * k.val, hl⟩ : Fin 65536)) := by
  rw [View.readAt_eq_ld, harg.read_unread]
  refine congrArg x (funext fun a => Fin.ext ?_)
  have e := k0_off1_eq k
  match a with
  | ⟨0, _⟩ => show k0_off1 k 0 + 1 * r.val = r.val; rw [e]; show 0 + 1 * r.val = r.val; omega
  | ⟨1, _⟩ => show k0_off1 k 1 + 1 * j.val = j.val + 8192 * k.val; rw [e]; show 8192 * k.val + 1 * j.val = j.val + 8192 * k.val; omega

section Closed

variable (𝒱 : Variants) (c : Dev nD) (bd : Option 𝒱.V) (i : grid0.Coords) (arg1 : Memref sig .tc .vmem S32x65536 .f32) (harg1 : arg1.IsWhole) (arg2 : Memref sig .tc .vmem S32x65536 .f32) (harg2 : arg2.IsWhole) (arg3 : Memref sig .tc .vmem S32x128 .f32) (harg3 : arg3.IsWhole) (x0 x1 : Vec Ideal S32x65536 .f32)

/-- The carried triple before trip `n`, from zero, the two staging buffers holding the blocks `x0` and `x1`. -/
abbrev carried (n : ℕ) : FVec Ideal S32x1 .f32 × FVec Ideal S32x1 .f32 × FVec Ideal S32x1 .f32 :=
  st_k0_t1 (F := Ideal) 𝒱 c bd i arg1 harg1 arg2 harg2 arg3 harg3 (harg1.unread x0) (harg2.unread x1) (k0_pay1, k0_pay2, k0_pay3) n

/-- One more trip, from the carried triple before it. -/
theorem carried_succ (k : Fin 8) :
    carried 𝒱 c bd i arg1 harg1 arg2 harg2 arg3 harg3 x0 x1 (k.val + 1)
      = tripR_k0_t1 (F := Ideal) 𝒱 c bd i arg1 harg1 arg2 harg2 arg3 harg3 (harg1.unread x0) (harg2.unread x1) ⟨k.val, Nat.lt_of_lt_of_eq k.isLt trips_eq.symm⟩ (carried 𝒱 c bd i arg1 harg1 arg2 harg2 arg3 harg3 x0 x1 k.val) :=
  st_k0_t1_succ (F := Ideal) 𝒱 c bd i arg1 harg1 arg2 harg2 arg3 harg3 (harg1.unread x0) (harg2.unread x1) (k0_pay1, k0_pay2, k0_pay3) ⟨k.val, Nat.lt_of_lt_of_eq k.isLt trips_eq.symm⟩

/-- After the loop the numerator accumulator, at row `r`, is the row's sum of σ(prediction) · target. -/
theorem loop_numer (r : Fin 32) :
    (carried 𝒱 c bd i arg1 harg1 arg2 harg2 arg3 harg3 x0 x1 8).1 (ix2 r (0 : Fin 1)) = ∑ k : Fin 65536, Ideal.logistic (x0 (ix2 r k)) * x1 (ix2 r k) := by
  have h := fold_chunks_eq_sum 8 8192 (n := 65536) rfl (fun k : Fin 65536 => Ideal.logistic (x0 (ix2 r k)) * x1 (ix2 r k)) 0
    (fun n => (carried 𝒱 c bd i arg1 harg1 arg2 harg2 arg3 harg3 x0 x1 n).1 (ix2 r (0 : Fin 1))) (show (carried 𝒱 c bd i arg1 harg1 arg2 harg2 arg3 harg3 x0 x1 0).1 (ix2 r (0 : Fin 1)) = 0 from pay1_apply (ix2 r (0 : Fin 1))) (fun k => by
      show (carried 𝒱 c bd i arg1 harg1 arg2 harg2 arg3 harg3 x0 x1 (k.val + 1)).1 (ix2 r (0 : Fin 1)) = _
      rw [carried_succ, tripR_eq]
      refine (pay6_apply _ _ _ r).trans (congrArg (_ + ·) (Finset.sum_congr rfl fun j _ => ?_))
      rw [chunk_read, chunk_read])
  rw [h, zero_add]

/-- After the loop the prediction-sum accumulator, at row `r`, is the row's sum of σ(prediction). -/
theorem loop_pred (r : Fin 32) :
    (carried 𝒱 c bd i arg1 harg1 arg2 harg2 arg3 harg3 x0 x1 8).2.1 (ix2 r (0 : Fin 1)) = ∑ k : Fin 65536, Ideal.logistic (x0 (ix2 r k)) := by
  have h := fold_chunks_eq_sum 8 8192 (n := 65536) rfl (fun k : Fin 65536 => Ideal.logistic (x0 (ix2 r k))) 0
    (fun n => (carried 𝒱 c bd i arg1 harg1 arg2 harg2 arg3 harg3 x0 x1 n).2.1 (ix2 r (0 : Fin 1))) (show (carried 𝒱 c bd i arg1 harg1 arg2 harg2 arg3 harg3 x0 x1 0).2.1 (ix2 r (0 : Fin 1)) = 0 from pay2_apply (ix2 r (0 : Fin 1))) (fun k => by
      show (carried 𝒱 c bd i arg1 harg1 arg2 harg2 arg3 harg3 x0 x1 (k.val + 1)).2.1 (ix2 r (0 : Fin 1)) = _
      rw [carried_succ, tripR_eq]
      refine (pay7_apply _ _ r).trans (congrArg (_ + ·) (Finset.sum_congr rfl fun j _ => ?_))
      rw [chunk_read])
  rw [h, zero_add]

/-- After the loop the target-sum accumulator, at row `r`, is the row's sum of the target. -/
theorem loop_targ (r : Fin 32) :
    (carried 𝒱 c bd i arg1 harg1 arg2 harg2 arg3 harg3 x0 x1 8).2.2 (ix2 r (0 : Fin 1)) = ∑ k : Fin 65536, x1 (ix2 r k) := by
  have h := fold_chunks_eq_sum 8 8192 (n := 65536) rfl (fun k : Fin 65536 => x1 (ix2 r k)) 0
    (fun n => (carried 𝒱 c bd i arg1 harg1 arg2 harg2 arg3 harg3 x0 x1 n).2.2 (ix2 r (0 : Fin 1))) (show (carried 𝒱 c bd i arg1 harg1 arg2 harg2 arg3 harg3 x0 x1 0).2.2 (ix2 r (0 : Fin 1)) = 0 from pay3_apply (ix2 r (0 : Fin 1))) (fun k => by
      show (carried 𝒱 c bd i arg1 harg1 arg2 harg2 arg3 harg3 x0 x1 (k.val + 1)).2.2 (ix2 r (0 : Fin 1)) = _
      rw [carried_succ, tripR_eq]
      refine (pay8_apply _ _ r).trans (congrArg (_ + ·) (Finset.sum_congr rfl fun j _ => ?_))
      rw [chunk_read])
  rw [h, zero_add]

end Closed

end Cert.KernelIdeal.Body

end
-- ==== Proof.KernelPack.lean ====
/-
  THE PACKED BLOCK. After the loop the body lays the three [32, 1] accumulators, the first column of the target
  block and 124 columns of zeros side by side into one [32, 128] block. Read at `(r, j)`: column 0 is the numerator
  accumulator's row `r`, column 1 the prediction sum's, column 2 the target sum's, column 3 the target block's entry
  `(r, 0)`, and every later column is zero.
-/
import proofs.«106986_j12704513262234_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The packed block at row `r`, column `j`. -/
theorem pay9_apply (n p t : FVec Ideal S32x1 .f32) (v5 : Vec Ideal S32x1 .f32) (r : Fin 32) (j : Fin 128) :
    k0_pay9 (F := Ideal) n p t v5 (ix2 r j)
      = if j.val = 0 then n (ix2 r (0 : Fin 1)) else if j.val = 1 then p (ix2 r (0 : Fin 1))
        else if j.val = 2 then t (ix2 r (0 : Fin 1)) else if j.val = 3 then v5 (ix2 r (0 : Fin 1)) else 0 := by
  unfold k0_pay9
  show concatenate S32x128 1 [⟨S32x1, n⟩, ⟨S32x1, p⟩, ⟨S32x1, t⟩, ⟨S32x1, shapeCast S32x1 v5 shapeCasts_S32x1_S32x1⟩,
    ⟨S32x124, broadcast S32x124 (Scalar.ofBits (F := Ideal) .f32 0x00000000#32)⟩]
    concatenates_S32x1_S32x1_S32x1_S32x1_S32x124_S32x128_d1 (ix2 r j) = _
  rw [shapeCast_self]
  by_cases h0 : j.val = 0
  · rw [if_pos h0]
    refine concatenate_apply_piece (1 : Fin 2) _ _ (ix2 r j) 0 ?_ S32x1 n ?_ rfl 0 ?_ (ix2 r (0 : Fin 1)) (fun b hb => ?_) ?_
    · simp
    · rfl
    · rfl
    · fin_cases b
      · rfl
      · exact absurd rfl hb
    · show 0 + 0 = j.val; omega
  rw [if_neg h0]
  by_cases h1 : j.val = 1
  · rw [if_pos h1]
    refine concatenate_apply_piece (1 : Fin 2) _ _ (ix2 r j) 1 ?_ S32x1 p ?_ rfl 1 ?_ (ix2 r (0 : Fin 1)) (fun b hb => ?_) ?_
    · simp
    · rfl
    · rfl
    · fin_cases b
      · rfl
      · exact absurd rfl hb
    · show 1 + 0 = j.val; omega
  rw [if_neg h1]
  by_cases h2 : j.val = 2
  · rw [if_pos h2]
    refine concatenate_apply_piece (1 : Fin 2) _ _ (ix2 r j) 2 ?_ S32x1 t ?_ rfl 2 ?_ (ix2 r (0 : Fin 1)) (fun b hb => ?_) ?_
    · simp
    · rfl
    · rfl
    · fin_cases b
      · rfl
      · exact absurd rfl hb
    · show 2 + 0 = j.val; omega
  rw [if_neg h2]
  by_cases h3 : j.val = 3
  · rw [if_pos h3]
    refine concatenate_apply_piece (1 : Fin 2) _ _ (ix2 r j) 3 ?_ S32x1 v5 ?_ rfl 3 ?_ (ix2 r (0 : Fin 1)) (fun b hb => ?_) ?_
    · simp
    · rfl
    · rfl
    · fin_cases b
      · rfl
      · exact absurd rfl hb
    · show 3 + 0 = j.val; omega
  rw [if_neg h3]
  have hj : j.val < 128 := j.isLt
  refine (concatenate_apply_piece (1 : Fin 2) _ _ (ix2 r j) 4 ?_ S32x124
    (broadcast S32x124 (Scalar.ofBits (F := Ideal) .f32 0x00000000#32)) ?_ rfl 4 ?_
    (ix2 r (⟨j.val - 4, by omega⟩ : Fin 124)) (fun b hb => ?_) ?_).trans Ideal.ofBits_zero_f32
  · simp
  · rfl
  · rfl
  · fin_cases b
    · rfl
    · exact absurd rfl hb
  · show 4 + (j.val - 4) = j.val; omega

end Cert.KernelIdeal.Body

end
-- ==== Proof.KernelBlock.lean ====
/-
  WHAT THE BODY LEAVES IN ITS OUTPUT BLOCK. The body makes one store, of the whole [32, 128] block: the packed
  accumulators after the loop. With the prediction block `x0` and the target block `x1` in the two input staging
  buffers, the block it leaves holds at row `r`

      column 0:  ∑ₖ σ(x0[r, k]) · x1[r, k]      column 1:  ∑ₖ σ(x0[r, k])      column 2:  ∑ₖ x1[r, k]      column 3:  x1[r, 0]

  (`k` over the 65536 lanes) and zero in the other 124 columns: `blockStat`.
-/
import proofs.«106986_j12704513262234_2_alg».proof.Proof.Gen.KernelIdeal.Frame
import proofs.«106986_j12704513262234_2_alg».proof.Proof.KernelLoop
import proofs.«106986_j12704513262234_2_alg».proof.Proof.KernelPack
import Idealize.ShloMosaic.Lib.Pipeline.Value

set_option maxRecDepth 16384

noncomputable section

open scoped BigOperators

namespace Cert.KernelIdeal.Body

open Cert.KernelIdeal Cert.KernelIdeal.Gen Idealize.ShloMosaic Idealize.ShloMosaic.ValueIdx Idealize.SL.Sem

theorem hz : (![0, 0] : Fin 2 → Nat) = fun _ => 0 := funext fun a => by fin_cases a <;> rfl

/-- Row `r`, column `j` of the block the body leaves, from the prediction block `x0` and the target block `x1`. -/
def blockStat (x0 x1 : Vec Ideal S32x65536 .f32) (r : Fin 32) (j : ℕ) : EReal :=
  if j = 0 then ∑ k : Fin 65536, Ideal.logistic (x0 (ix2 r k)) * x1 (ix2 r k)
  else if j = 1 then ∑ k : Fin 65536, Ideal.logistic (x0 (ix2 r k))
  else if j = 2 then ∑ k : Fin 65536, x1 (ix2 r k)
  else if j = 3 then x1 (ix2 r (⟨0, by decide⟩ : Fin 65536)) else 0

/-- The first-column load of the target staging buffer, at row `r`, is the target block at `(r, 0)`. -/
theorem firstCol_read (arg : Memref sig .tc .vmem S32x65536 .f32) (harg : arg.IsWhole) (x : Vec Ideal S32x65536 .f32) (r : Fin 32) :
    View.readAt (Elt Ideal) arg.view (Rect.unit (s := S32x65536) ![0, 0] S32x1.size inb_S32x65536_S32x1_0_0).toLoadRect (harg.unread x)
        (ix2 r (0 : Fin 1)) = x (ix2 r (⟨0, by decide⟩ : Fin 65536)) := by
  rw [View.readAt_eq_ld, harg.read_unread]
  refine congrArg x (funext fun a => Fin.ext ?_)
  match a with
  | ⟨0, _⟩ => show 0 + 1 * r.val = r.val; omega
  | ⟨1, _⟩ => show 0 + 1 * 0 = 0; rfl

/-- The block the body leaves, at `(r, j)`. -/
theorem out_apply (c : Dev nD) (i : grid0.Coords) (arg1 : Memref sig .tc .vmem S32x65536 .f32) (harg1 : arg1.IsWhole) (arg2 : Memref sig .tc .vmem S32x65536 .f32) (harg2 : arg2.IsWhole) (arg3 : Memref sig .tc .vmem S32x128 .f32) (harg3 : arg3.IsWhole) (x0 x1 : Vec Ideal S32x65536 .f32) (r : Fin 32) (j : Fin 128) :
    out0_A_2 (F := Ideal) c i arg1 harg1 arg2 harg2 arg3 harg3 x0 x1 (ix2 r j) = blockStat x0 x1 r j.val := by
  unfold out0_A_2
  rw [View.read_writes_eq_canon _ _ _ (cover0_A_2 c i arg1 harg1 arg2 harg2 arg3 harg3 x0 x1)]
  unfold kernelRun0_A
  dsimp only
  rw [View.canon_unit_zero hz]
  refine (pay9_apply _ _ _ _ r j).trans ?_
  unfold blockStat
  exact if_congr Iff.rfl (loop_numer Variants.none c none i arg1 harg1 arg2 harg2 arg3 harg3 x0 x1 r)
    (if_congr Iff.rfl (loop_pred Variants.none c none i arg1 harg1 arg2 harg2 arg3 harg3 x0 x1 r)
      (if_congr Iff.rfl (loop_targ Variants.none c none i arg1 harg1 arg2 harg2 arg3 harg3 x0 x1 r)
        (if_congr Iff.rfl (firstCol_read arg2 harg2 x1 r) rfl)))

/-- The same at any index of the block. -/
theorem out_eq (c : Dev nD) (i : grid0.Coords) (arg1 : Memref sig .tc .vmem S32x65536 .f32) (harg1 : arg1.IsWhole) (arg2 : Memref sig .tc .vmem S32x65536 .f32) (harg2 : arg2.IsWhole) (arg3 : Memref sig .tc .vmem S32x128 .f32) (harg3 : arg3.IsWhole) (x0 x1 : Vec Ideal S32x65536 .f32) :
    out0_A_2 (F := Ideal) c i arg1 harg1 arg2 harg2 arg3 harg3 x0 x1 = fun y => blockStat x0 x1 (⟨(y 0).val, (y 0).isLt⟩ : Fin 32) (y 1).val := by
  funext y
  have hy : y = ix2 (⟨(y 0).val, (y 0).isLt⟩ : Fin 32) (⟨(y 1).val, (y 1).isLt⟩ : Fin 128) := by
    funext a; match a with | ⟨0, _⟩ => rfl | ⟨1, _⟩ => rfl
  exact (congrArg (out0_A_2 (F := Ideal) c i arg1 harg1 arg2 harg2 arg3 harg3 x0 x1) hy).trans
    (out_apply c i arg1 harg1 arg2 harg2 arg3 harg3 x0 x1 (⟨(y 0).val, (y 0).isLt⟩ : Fin 32) (⟨(y 1).val, (y 1).isLt⟩ : Fin 128))

end Cert.KernelIdeal.Body

end
-- ==== Proof.KernelArray.lean ====
/-
  FROM BLOCKS TO THE ARRAY. The region runs the body at 16 grid points; point `t` reads rows `32 t … 32 t + 31` of the
  two flattened [512, 65536] arrays and writes back rows `32 t … 32 t + 31` of the [512, 128] result array. Every row
  of the result lies in exactly the block of point `row / 32`, and what a point writes is the restriction to its rows
  of ONE function of the two flattened arrays, `packed`: at row `R`

      column 0:  ∑ₖ σ(a0[R, k]) · a1[R, k]      column 1:  ∑ₖ σ(a0[R, k])      column 2:  ∑ₖ a1[R, k]      column 3:  a1[R, 0]

  and zero elsewhere. So after the region the result array is `packed` of the two flattened arrays.
-/
import proofs.«106986_j12704513262234_2_alg».proof.Proof.KernelBlock

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat)

/-- Row `R`, column `j` of the packed statistics of two flattened arrays. -/
def rowStat (a0 a1 : FVec Ideal S512x65536 .f32) (R : Fin 512) (j : ℕ) : EReal :=
  if j = 0 then ∑ k : Fin 65536, Ideal.logistic (a0 (ix2 R k)) * a1 (ix2 R k)
  else if j = 1 then ∑ k : Fin 65536, Ideal.logistic (a0 (ix2 R k))
  else if j = 2 then ∑ k : Fin 65536, a1 (ix2 R k)
  else if j = 3 then a1 (ix2 R (⟨0, by decide⟩ : Fin 65536)) else 0

/-- The [512, 128] array of packed statistics. -/
def packed (a0 a1 : FVec Ideal S512x65536 .f32) : FVec Ideal S512x128 .f32 :=
  fun i => rowStat a0 a1 (⟨(i 0).val, (i 0).isLt⟩ : Fin 512) (i 1).val

/-- Row `r` of block `q` is row `32 q + r` of the array. -/
def rowAt (q : ℕ) (hq : q < 16) (r : Fin 32) : Fin 512 := ⟨q * 32 + r.val, by have := r.isLt; omega⟩

/-- Blocks that are rows `32 q …` of two arrays have those rows' statistics. -/
theorem blockStat_eq (a0 a1 : FVec Ideal S512x65536 .f32) (x0 x1 : Vec Ideal S32x65536 .f32) (q : ℕ) (hq : q < 16)
    (h0 : ∀ (r : Fin 32) (k : Fin 65536), x0 (ix2 r k) = a0 (ix2 (rowAt q hq r) k))
    (h1 : ∀ (r : Fin 32) (k : Fin 65536), x1 (ix2 r k) = a1 (ix2 (rowAt q hq r) k)) (r : Fin 32) (j : ℕ) :
    blockStat x0 x1 r j = rowStat a0 a1 (rowAt q hq r) j := by
  unfold blockStat rowStat
  simp only [h0, h1]

/-- The printed index maps, decided over the grid: each window's block row is the grid coordinate, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- WHAT POINT `t` WRITES BACK is block `t` of `packed` of the two flattened arrays as the region finds them. -/
theorem flushed_eq (c : Dev nD) (t : Fin cfg0.N) :
    (dats m 0 c).flushed 2 t = ((cfg0.win 2).blk t).view.read (Elt Ideal) (packed (V m c main_v0) (V m c main_v1)) := by
  show (cfg0.win 2).cut (grid0.coords t) ((dats m 0 c).after 2 t) = _
  rw [after0_2]
  unfold outsAt0
  rw [out_eq c (grid0.coords t) (ms0_0 t) (hs0_0 t) (ms0_1 t) (hs0_1 t) (ms0_2 t) (hs0_2 t) (iblk m c 0 t) (iblk m c 1 t)]
  obtain ⟨e00, e01, e10, e11, e20, e21⟩ := idx_facts t
  have ht : t.val < 16 := Nat.lt_of_lt_of_eq t.isLt N_0
  have h0 : ∀ (r : Fin 32) (k : Fin 65536), iblk m c 0 t (ix2 r k) = V m c main_v0 (ix2 (rowAt t.val ht r) k) := by
    intro r k
    show V m c main_v0 (((cfg0.win 0).blk t).view.emb (ix2 r k)) = _
    refine congrArg (V m c main_v0) (funext fun a => Fin.ext ?_)
    match a with
    | ⟨0, _⟩ => show win0_0.index t (0 : Fin 2) * 32 + 1 * r.val = t.val * 32 + r.val; rw [e00]; omega
    | ⟨1, _⟩ => show win0_0.index t (1 : Fin 2) * 65536 + 1 * k.val = k.val; rw [e01]; omega
  have h1 : ∀ (r : Fin 32) (k : Fin 65536), iblk m c 1 t (ix2 r k) = V m c main_v1 (ix2 (rowAt t.val ht r) k) := by
    intro r k
    show V m c main_v1 (((cfg0.win 1).blk t).view.emb (ix2 r k)) = _
    refine congrArg (V m c main_v1) (funext fun a => Fin.ext ?_)
    match a with
    | ⟨0, _⟩ => show win0_1.index t (0 : Fin 2) * 32 + 1 * r.val = t.val * 32 + r.val; rw [e10]; omega
    | ⟨1, _⟩ => show win0_1.index t (1 : Fin 2) * 65536 + 1 * k.val = k.val; rw [e11]; omega
  funext y
  have c0 : ((((cfg0.win 2).blk t).view.emb y) 0).val = t.val * 32 + (y 0).val := by
    show win0_2.index t (0 : Fin 2) * 32 + 1 * (y 0).val = _; rw [e20]; omega
  have c1 : ((((cfg0.win 2).blk t).view.emb y) 1).val = (y 1).val := by
    show win0_2.index t (1 : Fin 2) * 128 + 1 * (y 1).val = _; rw [e21]; omega
  show blockStat (iblk m c 0 t) (iblk m c 1 t) (⟨(y 0).val, (y 0).isLt⟩ : Fin 32) (y 1).val
    = rowStat (V m c main_v0) (V m c main_v1) (⟨((((cfg0.win 2).blk t).view.emb y) 0).val, _⟩ : Fin 512) ((((cfg0.win 2).blk t).view.emb y) 1).val
  rw [c1, blockStat_eq (V m c main_v0) (V m c main_v1) (iblk m c 0 t) (iblk m c 1 t) t.val ht h0 h1]
  exact congrArg (fun R => rowStat (V m c main_v0) (V m c main_v1) R (y 1).val) (Fin.ext c0.symm)

/-- An index of the array is in point `t`'s block iff each coordinate is in the block's range on its axis. -/
theorem mem_blk (t : Fin cfg0.N) (i : S512x128.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v2).slice (win0_2.rect t)).set ↔ _
  rw [View.set_slice_whole, Rect.mem_set_unit]
  exact Iff.rfl

/-- Every index of the result array is in the block of the point `row / 32`, which is written back. -/
theorem covered (i : S512x128.Idx) : ∃ t : Fin cfg0.N, (cfg0.win 2).flush t = true ∧ i ∈ ((cfg0.win 2).blk t).view.set := by
  have hi0 : (i 0).val < 512 := (i 0).isLt
  have hi1 : (i 1).val < 128 := (i 1).isLt
  have hN : cfg0.N = 16 := N_0
  obtain ⟨t, ht⟩ : ∃ t : Fin cfg0.N, t.val = (i 0).val / 32 := ⟨⟨(i 0).val / 32, by rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; rw [e20, ht]; omega
  | ⟨1, _⟩ => show win0_2.index t (1 : Fin 2) * 128 ≤ (i 1).val ∧ (i 1).val < win0_2.index t (1 : Fin 2) * 128 + 128; rw [e21]; omega

/-- THE RESULT ARRAY after the region: `packed` of the two flattened arrays as the region finds them. -/
theorem final (c : Dev nD) : (dats m 0 c).arrAt 2 cfg0.N = packed (V m c main_v0) (V m c main_v1) :=
  (dats m 0 c).arrAt_eq_of_cover 2 (packed (V m c main_v0) (V m c main_v1)) (fun t _ => flushed_eq m c t) covered

end Cert.KernelIdeal.Body

end
-- ==== Proof.KernelCols.lean ====
/-
  THE HOST LINES AROUND THE REGION, read at an index. Before the region the two volumes are flattened to
  [512, 65536]: entry `(R, k)` is the volume's entry `k` of slice `R` (the same row-major position `65536 R + k`).
  After it, column `j` of the [512, 128] result array is sliced out, its unit axis dropped, and the 512 rows are
  reshaped to [2, 4, 64]: entry `(b, o, d)` is the array's entry `(rowOf (b, o, d), j)`. So the four columns the
  host reads of the region's result are the specification's four statistics.
-/
import proofs.«106986_j12704513262234_2_alg».proof.Proof.KernelArray
import proofs.«106986_j12704513262234_2_alg».proof.Proof.DiceSpec

noncomputable section

open scoped BigOperators

namespace Cert.KernelIdeal.Body

open Cert.KernelIdeal Cert.KernelIdeal.Gen Idealize.ShloMosaic Idealize.ShloMosaic.ValueIdx Cert.Dice

/-- A flattened volume at `(R, k)` is the volume at entry `k` of slice `R`. -/
theorem flat_apply (x : FVec Ideal S2x4x64x256x256 .f32) (R : Fin 512) (k : Fin 65536) :
    shapeCast S512x65536 x shapeCasts_S2x4x64x256x256_S512x65536 (ix2 R k) = x (cell R k) := by
  refine shapeCast_apply x shapeCasts_S2x4x64x256x256_S512x65536 (ix2 R k) (cell R k) ?_
  have hR : R.val < 512 := R.isLt
  have hk : k.val < 65536 := k.isLt
  rw [Shape.rowMajor_val_five, Shape.rowMajor_val_two]
  show (((((R.val * 65536 + k.val) / 16777216) * 4 + (R.val * 65536 + k.val) / 4194304 % 4) * 64
      + (R.val * 65536 + k.val) / 65536 % 64) * 256 + (R.val * 65536 + k.val) / 256 % 256) * 256
      + (R.val * 65536 + k.val) % 256 = R.val * 65536 + k.val
  omega

/-- The packed statistics of two flattened volumes, at row `R`: the specification's statistics of slice `R`. -/
theorem rowStat_flat (x0 x1 : FVec Ideal S2x4x64x256x256 .f32) (R : Fin 512) :
    rowStat (shapeCast S512x65536 x0 shapeCasts_S2x4x64x256x256_S512x65536)
        (shapeCast S512x65536 x1 shapeCasts_S2x4x64x256x256_S512x65536) R 0 = rowNumer x0 x1 R
    ∧ rowStat (shapeCast S512x65536 x0 shapeCasts_S2x4x64x256x256_S512x65536)
        (shapeCast S512x65536 x1 shapeCasts_S2x4x64x256x256_S512x65536) R 1 = rowPred x0 R
    ∧ rowStat (shapeCast S512x65536 x0 shapeCasts_S2x4x64x256x256_S512x65536)
        (shapeCast S512x65536 x1 shapeCasts_S2x4x64x256x256_S512x65536) R 2 = rowTarg x1 R
    ∧ rowStat (shapeCast S512x65536 x0 shapeCasts_S2x4x64x256x256_S512x65536)
        (shapeCast S512x65536 x1 shapeCasts_S2x4x64x256x256_S512x65536) R 3 = rowFirst x1 R := by
  unfold rowStat rowNumer rowPred rowTarg rowFirst
  simp only [flat_apply]
  exact ⟨rfl, rfl, rfl, rfl⟩

/-- Column `o` of a [512, 128] array, sliced out, its unit axis dropped, its rows reshaped to [2, 4, 64], at
    `(b, o', d)`: the array at row `rowOf (b, o', d)`, column `o`. -/
theorem column_apply (P : FVec Ideal S512x128 .f32) (o : Fin 128) (hs : S512x128.Slices ![0, o.val] S512x1) (s : S2x4x64.Idx) :
    shapeCast S2x4x64 (shapeCast S512 (extractStridedSlice S512x1 ![0, o.val] P hs) shapeCasts_S512x1_S512) shapeCasts_S512_S2x4x64 s
      = P (ix2 (rowOf s) o) := by
  have h0 : (s 0).val < 2 := (s 0).isLt
  have h1 : (s 1).val < 4 := (s 1).isLt
  have h2 : (s 2).val < 64 := (s 2).isLt
  refine (shapeCast_apply _ shapeCasts_S512_S2x4x64 s (ix1 (rowOf s)) ?_).trans
    ((shapeCast_apply _ shapeCasts_S512x1_S512 (ix1 (rowOf s)) (ix2 (rowOf s) (0 : Fin 1)) ?_).trans
      (extractStridedSlice_apply ![0, o.val] P hs (ix2 (rowOf s) (0 : Fin 1)) (ix2 (rowOf s) o) (fun a => ?_)))
  · rw [Shape.rowMajor_val_one, Shape.rowMajor_val_three]; rfl
  · rw [Shape.rowMajor_val_two, Shape.rowMajor_val_one]; show (rowOf s).val * 1 + 0 = (rowOf s).val; omega
  · match a with
    | ⟨0, _⟩ => show (rowOf s).val = 0 + (rowOf s).val; omega
    | ⟨1, _⟩ => show o.val = o.val + 0; omega

end Cert.KernelIdeal.Body

end
-- ==== Proof.KernelTail.lean ====
/-
  THE KERNEL'S RESULT. After the region the host slices columns 0–3 out of the [512, 128] array of packed statistics,
  reshapes each to [2, 4, 64] and applies the tail; the region's array is `packed` of the two flattened volumes, whose
  four columns are the specification's four statistics. So the kernel's scalar result is `Cert.Dice.result` of the two
  volumes — the same function the reference computes.
-/
import proofs.«106986_j12704513262234_2_alg».proof.Proof.KernelCols
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Body Idealize.ShloMosaic Idealize.ShloMosaic.TcCoe Idealize.ShloMosaic.ValueIdx
open Idealize.SL.Sem Idealize.ShloMosaic.StableHlo Cert.Dice
open Idealize.ShloMosaic.Pipeline (Dat)

variable (m : (ℓ : Loc nD τ sig) → Buf (Elt Ideal) ℓ) (ρ : Dev nD → PrngReg)

/-- The host's lines after the region, as a function of the region's result array: four columns, each reshaped to
    [2, 4, 64], then the tail. -/
def tailOf (P : FVec Ideal S512x128 .f32) : FVec Ideal S_ .f32 :=
  Cert.Dice.tail
    (shapeCast S2x4x64 (shapeCast S512 (extractStridedSlice S512x1 ![0, 0] P slices_S512x128_S512x1_0_0) shapeCasts_S512x1_S512) shapeCasts_S512_S2x4x64)
    (shapeCast S2x4x64 (shapeCast S512 (extractStridedSlice S512x1 ![0, 1] P slices_S512x128_S512x1_0_1) shapeCasts_S512x1_S512) shapeCasts_S512_S2x4x64)
    (shapeCast S2x4x64 (shapeCast S512 (extractStridedSlice S512x1 ![0, 2] P slices_S512x128_S512x1_0_2) shapeCasts_S512x1_S512) shapeCasts_S512_S2x4x64)
    (shapeCast S2x4x64 (shapeCast S512 (extractStridedSlice S512x1 ![0, 3] P slices_S512x128_S512x1_0_3) shapeCasts_S512x1_S512) shapeCasts_S512_S2x4x64)

/-- The region finds the two volumes flattened. -/
theorem V_v0 (c : Dev nD) :
    V m c main_v0 = shapeCast S512x65536 (m ((c : Thread nD τ).loc main_arg0)) shapeCasts_S2x4x64x256x256_S512x65536 := by
  show StableHlo.after hostOps0 (fun b => m (c, b)) (Proc.devRef .tc main_v0) = _
  after_results; rfl
theorem V_v1 (c : Dev nD) :
    V m c main_v1 = shapeCast S512x65536 (m ((c : Thread nD τ).loc main_arg1)) shapeCasts_S2x4x64x256x256_S512x65536 := by
  show StableHlo.after hostOps0 (fun b => m (c, b)) (Proc.devRef .tc main_v1) = _
  after_results; rfl

set_option maxRecDepth 8192 in
set_option maxHeartbeats 2000000 in
/-- What the host's lines after the region leave at the program's result: the tail of the region's result array,
    which is `packed` of the two flattened volumes. -/
theorem tail_result (c : Dev nD) :
    Pipeline.afterTail₀ cfgs (dats m) 0 (V0 m) [hostOps1] c main_v31 = tailOf (packed (V m c main_v0) (V m c main_v1)) := by
  have e : Pipeline.withArrays (cfgs 0).spec c (V0 m c) (fun w => (dats m 0 c).arrAt w (cfgs 0).N) (Proc.devRef .tc main_v2)
      = packed (V m c main_v0) (V m c main_v1) :=
    (Pipeline.withArrays_arr spec0 launch0.win.arr_inj c _ _ 2).trans (final m c)
  unfold Pipeline.afterTail₀
  show StableHlo.after hostOps1 _ (Proc.devRef .tc main_v31) = _
  after_results_simp
  rw [e]
  rfl

/-- The four columns the host reads of `packed` of two flattened volumes are the specification's four statistics,
    so the tail of that array is the specification's result. -/
theorem tailOf_packed (x0 x1 : FVec Ideal S2x4x64x256x256 .f32) :
    tailOf (packed (shapeCast S512x65536 x0 shapeCasts_S2x4x64x256x256_S512x65536)
      (shapeCast S512x65536 x1 shapeCasts_S2x4x64x256x256_S512x65536)) = Cert.Dice.result x0 x1 := by
  have e0 : shapeCast S2x4x64 (shapeCast S512 (extractStridedSlice S512x1 ![0, 0]
        (packed (shapeCast S512x65536 x0 shapeCasts_S2x4x64x256x256_S512x65536) (shapeCast S512x65536 x1 shapeCasts_S2x4x64x256x256_S512x65536))
        slices_S512x128_S512x1_0_0) shapeCasts_S512x1_S512) shapeCasts_S512_S2x4x64
      = fun s => rowNumer x0 x1 (rowOf s) :=
    funext fun s => (column_apply _ (⟨0, by decide⟩ : Fin 128) slices_S512x128_S512x1_0_0 s).trans (rowStat_flat x0 x1 (rowOf s)).1
  have e1 : shapeCast S2x4x64 (shapeCast S512 (extractStridedSlice S512x1 ![0, 1]
        (packed (shapeCast S512x65536 x0 shapeCasts_S2x4x64x256x256_S512x65536) (shapeCast S512x65536 x1 shapeCasts_S2x4x64x256x256_S512x65536))
        slices_S512x128_S512x1_0_1) shapeCasts_S512x1_S512) shapeCasts_S512_S2x4x64
      = fun s => rowPred x0 (rowOf s) :=
    funext fun s => (column_apply _ (⟨1, by decide⟩ : Fin 128) slices_S512x128_S512x1_0_1 s).trans (rowStat_flat x0 x1 (rowOf s)).2.1
  have e2 : shapeCast S2x4x64 (shapeCast S512 (extractStridedSlice S512x1 ![0, 2]
        (packed (shapeCast S512x65536 x0 shapeCasts_S2x4x64x256x256_S512x65536) (shapeCast S512x65536 x1 shapeCasts_S2x4x64x256x256_S512x65536))
        slices_S512x128_S512x1_0_2) shapeCasts_S512x1_S512) shapeCasts_S512_S2x4x64
      = fun s => rowTarg x1 (rowOf s) :=
    funext fun s => (column_apply _ (⟨2, by decide⟩ : Fin 128) slices_S512x128_S512x1_0_2 s).trans (rowStat_flat x0 x1 (rowOf s)).2.2.1
  have e3 : shapeCast S2x4x64 (shapeCast S512 (extractStridedSlice S512x1 ![0, 3]
        (packed (shapeCast S512x65536 x0 shapeCasts_S2x4x64x256x256_S512x65536) (shapeCast S512x65536 x1 shapeCasts_S2x4x64x256x256_S512x65536))
        slices_S512x128_S512x1_0_3) shapeCasts_S512x1_S512) shapeCasts_S512_S2x4x64
      = fun s => rowFirst x1 (rowOf s) :=
    funext fun s => (column_apply _ (⟨3, by decide⟩ : Fin 128) slices_S512x128_S512x1_0_3 s).trans (rowStat_flat x0 x1 (rowOf s)).2.2.2
  unfold tailOf Cert.Dice.result
  rw [e0, e1, e2, e3]

/-- THE KERNEL'S RESULT is the specification's, of the two volumes as launched. -/
theorem kernel_result (c : Dev nD) :
    Pipeline.afterTail₀ cfgs (dats m) 0 (V0 m) [hostOps1] c main_v31
      = Cert.Dice.result (m ((c : Thread nD τ).loc main_arg0)) (m ((c : Thread nD τ).loc main_arg1)) := by
  rw [tail_result, V_v0, V_v1]
  exact tailOf_packed _ _

/-- The run, read: the result at the specification's value of the two volumes, the two volumes unchanged. -/
theorem run : θ_run defs (onTc (τ := τ) (main (F := Ideal))) ⟨m, fun _ => 0, ρ⟩ fun r => ∀ c : Dev nD,
      r.2.mem ((c : Thread nD τ).loc main_v31)
        = Cert.Dice.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v31 (Pipeline.mem_restRefs_of main_v31 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/-
  The proof of `Cert.Claim`: at the ideal instance the kernel and the reference compute the same Dice-loss average of
  the two volumes.

  Both programs reduce each of the 512 slices (65536 consecutive entries of the row-major volumes) to four statistics —
  the sums of σ(prediction)·target, of σ(prediction) and of target over the slice, and the slice's first target entry —
  and apply the same tail to them (`Cert.Dice.result`, Proof/DiceSpec.lean). They differ in two ways only:
    * the kernel's logistic is one operation, the reference's is `1 / (1 + e^(-x))` spelled out: one function on the
      extended reals;
    * the kernel sums a slice in 8 chunks of 8192 lanes, left to right from zero, where the reference takes one sum of
      65536 terms from zero: equal because addition of extended reals is commutative and associative (with both
      infinities), so no precondition on the inputs is used beyond the claim's own.
  The reference's side is Proof/RefIsSpec.lean; the kernel's runs from the loop body's arithmetic (KernelChunk), the
  loop closed (KernelLoop), the packed block (KernelPack, KernelBlock), the blocks assembled into the region's result
  array (KernelArray), and the host lines around the region (KernelCols, KernelTail).
  The three frames are the generated ones; the ideal pass rewrote nothing, so `preserves` is `True`.
-/
import proofs.«106986_j12704513262234_2_alg».proof.Defs
import proofs.«106986_j12704513262234_2_alg».proof.Proof.Gen.Kernel
import proofs.«106986_j12704513262234_2_alg».proof.Proof.Gen.Kernel.Skeleton
import proofs.«106986_j12704513262234_2_alg».proof.Proof.Gen.Kernel.Loops
import proofs.«106986_j12704513262234_2_alg».proof.Proof.Gen.Kernel.Launch
import proofs.«106986_j12704513262234_2_alg».proof.Proof.Gen.Kernel.Points
import proofs.«106986_j12704513262234_2_alg».proof.Proof.Gen.Kernel.Frame
import proofs.«106986_j12704513262234_2_alg».proof.Proof.Gen.KernelIdeal
import proofs.«106986_j12704513262234_2_alg».proof.Proof.Gen.KernelIdeal.Skeleton
import proofs.«106986_j12704513262234_2_alg».proof.Proof.Gen.KernelIdeal.Loops
import proofs.«106986_j12704513262234_2_alg».proof.Proof.Gen.KernelIdeal.Launch
import proofs.«106986_j12704513262234_2_alg».proof.Proof.Gen.KernelIdeal.Points
import proofs.«106986_j12704513262234_2_alg».proof.Proof.Gen.KernelIdeal.Frame
import proofs.«106986_j12704513262234_2_alg».proof.Proof.Gen.ReferenceIdeal
import proofs.«106986_j12704513262234_2_alg».proof.Proof.Gen.ReferenceIdeal.Run
import proofs.«106986_j12704513262234_2_alg».proof.Proof.Gen.ReferenceIdeal.Read
import proofs.«106986_j12704513262234_2_alg».proof.Proof.Gen.Pre_finite_inputs
import proofs.«106986_j12704513262234_2_alg».proof.Proof.RefIsSpec
import proofs.«106986_j12704513262234_2_alg».proof.Proof.KernelTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the two volumes, end at the specification's result of those volumes. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
